-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : FVec F S131072x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  main_v8
-- ==== Kernel.lean ====
abbrev S131072x512 : Shape := ⟨2, ![131072, 512]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1x2048 : Shape := ⟨2, ![1, 2048]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S1x1, .f32⟩
  | .hbm, ⟨3, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1, .f32⟩
  | .local _ .vmem, ⟨5, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v31 : BitVec 1 := Scalar.cmpi .eq arg0 c63_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x512 : Shape := ⟨2, ![131072, 512]⟩
abbrev S_ : Shape := ⟨0, ![]⟩
abbrev S131072 : Shape := ⟨1, ![131072]⟩
abbrev S131072x1 : Shape := ⟨2, ![131072, 1]⟩

abbrev nBuf : Space → Nat
  | .hbm => 25
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S131072, .f32⟩
  | .hbm, ⟨7, _⟩ => ⟨S131072x1, .f32⟩
  | .hbm, ⟨8, _⟩ => ⟨S131072x512, .f32⟩
  | .hbm, ⟨9, _⟩ => ⟨S131072x512, .f32⟩
  | .hbm, ⟨10, _⟩ => ⟨S131072x512, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  reducesTo_S131072_S_d0 : S131072.ReducesTo [0] S_

variable [Facts₀]

class Facts : Prop extends Facts₀ where

variable [Facts]
-- ==== Proof.SoftCrossEntropy.lean ====
/-
  The function both programs compute, over the extended reals.

  For a row `x` of scores and a row `g` of soft targets, the cross entropy of the row is
      rowLoss x g = -(∑ k, g k * logSoftmax x k),
      logSoftmax x k = (x k - M) - log (∑ l, exp (x l - M)),      M = the row's maximum,
  and the loss of a batch is the mean of its rows' losses: their sum divided by the number of rows.
  The maximum is the running maximum started from a value `b` (both programs start it from the same
  word, the pattern of -∞; nothing below depends on what `b` is). A maximum taken once more against
  its own starting value is unchanged (`max_rowMax`), and a sum over `A * B` rows is the sum over `A`
  blocks of the sums over the `B` rows of each block (`sum_blocks`): commutativity and associativity of
  `+` only, so no finiteness of the entries is needed.
-/
import Idealize.ShloMosaic.PureOps.Ideal
import Idealize.ShloMosaic.Lib.ValueIdx

noncomputable section

open scoped BigOperators

namespace Cert.SoftCrossEntropy

open Idealize.ShloMosaic Idealize.ShloMosaic.ValueIdx

/-- The value the running maximum starts from: what the pattern of -∞ denotes. -/
abbrev bot : EReal := Ideal.ofBits .f32 0xFF800000#32
/-- The divisor of the mean: what the pattern of 131072.0, the number of rows, denotes. -/
abbrev rows : EReal := Ideal.ofBits .f32 0x48000000#32

variable {K : Type} [Fintype K]

/-- The largest entry of a row, as the running maximum started from `b`. -/
def rowMax (b : EReal) (x : K → EReal) : EReal := Finset.univ.fold max b x

/-- The running maximum is at least the value it started from. -/
theorem le_rowMax (b : EReal) (x : K → EReal) : b ≤ rowMax b x :=
  (Finset.le_fold_max b).mpr (Or.inl le_rfl)

/-- Taking the maximum once more against the starting value changes nothing. -/
theorem max_rowMax (b : EReal) (x : K → EReal) : max b (rowMax b x) = rowMax b x :=
  max_eq_right (le_rowMax b x)

/-- The logarithm of the softmax of a row at `k`, in its shifted form: the entry less the row's maximum,
    less the logarithm of the sum of the exponentials of all the entries so shifted. -/
def logSoftmax (b : EReal) (x : K → EReal) (k : K) : EReal :=
  (x k - rowMax b x) - Ideal.log (∑ l, Ideal.exp (x l - rowMax b x))

/-- The cross entropy of one row of scores `x` against one row of soft targets `g`. -/
def rowLoss (b : EReal) (x g : K → EReal) : EReal := -(∑ k, g k * logSoftmax b x k)

/-- The loss of a batch of rows: the sum of the rows' losses divided by `d`. -/
def meanLoss {N : Type} [Fintype N] (b d : EReal) (X G : N → K → EReal) : EReal :=
  Ideal.div (∑ n, rowLoss b (X n) (G n)) d

/-- Row `r` of block `t`, when `A * B` rows are cut into `A` blocks of `B` consecutive rows: row `B * t + r`. -/
abbrev rowOf {A B : ℕ} (t : Fin A) (r : Fin B) : Fin (A * B) := finProdFinEquiv (t, r)

theorem rowOf_val {A B : ℕ} (t : Fin A) (r : Fin B) : (rowOf t r).val = r.val + B * t.val := rfl

/-- A sum over `A * B` rows is the sum over the blocks of the sums over each block's rows. -/
theorem sum_blocks {M : Type*} [AddCommMonoid M] (A B : ℕ) (f : Fin (A * B) → M) :
    ∑ t : Fin A, ∑ r : Fin B, f (rowOf t r) = ∑ n, f n :=
  (Fintype.sum_prod_type fun p : Fin A × Fin B => f (finProdFinEquiv p)).symm.trans
    (Equiv.sum_comp finProdFinEquiv f)

/-- The batch loss with the rows summed block by block. -/
theorem meanLoss_blocks (A B : ℕ) (b d : EReal) (X G : Fin (A * B) → K → EReal) :
    meanLoss b d X G
      = Ideal.div (∑ t : Fin A, ∑ r : Fin B, rowLoss b (X (rowOf t r)) (G (rowOf t r))) d := by
  unfold meanLoss
  rw [sum_blocks A B fun n => rowLoss b (X n) (G n)]

/-- A rank-1 index set is its one coordinate's range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-- A running sum, `p 0` first and then one more term per step, is the sum of the terms so far. -/
theorem running_sum {M : Type*} [AddCommMonoid M] (p : ℕ → M) (s : ℕ → M) (h0 : s 0 = p 0)
    (hs : ∀ n, s (n + 1) = s n + p (n + 1)) (n : ℕ) : s n = ∑ i ∈ Finset.range (n + 1), p i := by
  induction n with
  | zero => rw [h0]; simp
  | succ n ih => rw [hs, ih, Finset.sum_range_succ _ (n + 1)]

end Cert.SoftCrossEntropy

end
-- ==== Proof.RefValue.lean ====
/-
  The reference's result is the batch loss of its two argument arrays.

  The reference computes, row by row, the maximum `M` of the scores (a reduction started from the pattern of -∞,
  then one more maximum against a broadcast of the same pattern), the shifted scores `x - M`, the sum of their
  exponentials, its logarithm, the difference (the log-softmax), the products with the targets, their sum
  along the row, its negation; then the sum of the rows' values and its quotient by the number of rows.
  Read at an index each stage is one element (or one sum) of the stage before; chained, the result at its
  one index is `meanLoss` of the rows of the two arrays. The one law used is that the extra maximum against the
  reduction's own starting value changes nothing (`max_rowMax`); the zero the sums start from is `0`.
-/
import proofs.«133387_j25409026523315_1_alg».proof.Proof.RefReadP
import proofs.«133387_j25409026523315_1_alg».proof.Proof.SoftCrossEntropy
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Cert.SoftCrossEntropy
open Idealize.ShloMosaic Idealize.ShloMosaic.ValueIdx

/-- Row `n` of an array of 131072 rows of 512 entries. -/
abbrev rowAt (x : FVec Ideal S131072x512 .f32) (n : Fin 131072) : Fin 512 → EReal := fun k => x (ix2 n k)

/-! ### The index maps of the broadcasts and of the sums, at coordinates -/

theorem idx_v3_v4 (n : Fin 131072) (k : Fin 512) : idx_main_call0_v3 (idx_main_call0_v4 (ix2 n k)) = ix1 n :=
  funext fun a => match a with | ⟨0, _⟩ => rfl
theorem idx_v8_v10 (n : Fin 131072) (k : Fin 512) : idx_main_call0_v8 (idx_main_call0_v10 (ix2 n k)) = ix1 n :=
  funext fun a => match a with | ⟨0, _⟩ => rfl
theorem idx_v7 (n : Fin 131072) (k : Fin 512) : idx_main_call0_v7 (ix1 n) k = ix2 n k :=
  funext fun a => match a with | ⟨0, _⟩ => rfl | ⟨1, _⟩ => rfl
theorem idx_v2 (n : Fin 131072) (k : Fin 512) : idx_main_v2 (ix1 n) k = ix2 n k :=
  funext fun a => match a with | ⟨0, _⟩ => rfl | ⟨1, _⟩ => rfl

/-! ### The stages, at coordinates -/

/-- The row maximum: the reduction is the running maximum from `bot`, and the maximum against the broadcast
    `bot` leaves it. -/
theorem max_at (x : FVec Ideal S131072x512 .f32) (n : Fin 131072) :
    val_main_call0_v2 (F := Ideal) x (ix1 n) = rowMax bot (rowAt x n) := by
  rw [val_main_call0_v2_apply, val_main_call0_v1_apply, val_main_call0_cst_0_apply]
  unfold val_main_call0_v0
  rw [Host.reduce_eq_fold_single (FloatOps.maximumf (F := Ideal) (φ := .f32)) x _ reducesTo_S131072x512_S131072_d1 (by decide) h_S_ (ix1 n)]
  have e : (x ∘ (by decide : S131072x512.Reduces [1] S131072).lift (ix1 n)) = rowAt x n :=
    funext fun k => congrArg x (funext fun a => Fin.ext (by match a with | ⟨0, _⟩ => rfl | ⟨1, _⟩ => rfl))
  rw [e]
  exact max_rowMax bot (rowAt x n)

/-- The shifted score. -/
theorem shift_at (x : FVec Ideal S131072x512 .f32) (n : Fin 131072) (k : Fin 512) :
    val_main_call0_v5 (F := Ideal) x (ix2 n k) = x (ix2 n k) - rowMax bot (rowAt x n) := by
  rw [val_main_call0_v5_apply, val_main_call0_v4_apply, val_main_call0_v3_apply, idx_v3_v4, max_at]
  rfl

/-- The sum of the exponentials of a row's shifted scores. -/
theorem sumexp_at (x : FVec Ideal S131072x512 .f32) (n : Fin 131072) :
    val_main_call0_v7 (F := Ideal) x (ix1 n) = ∑ l : Fin 512, Ideal.exp (x (ix2 n l) - rowMax bot (rowAt x n)) := by
  rw [val_main_call0_v7_apply, val_main_call0_cst_1_apply]
  show Ideal.ofBits .f32 0x00000000#32 + _ = _
  rw [Ideal.ofBits_zero_f32, zero_add]
  refine Finset.sum_congr rfl fun l _ => ?_
  rw [idx_v7, val_main_call0_v6_apply, shift_at]
  rfl

/-- The log-softmax. -/
theorem logp_at (x : FVec Ideal S131072x512 .f32) (n : Fin 131072) (k : Fin 512) :
    val_main_v0 (F := Ideal) x (ix2 n k) = logSoftmax bot (rowAt x n) k := by
  rw [val_main_v0_apply, shift_at, val_main_call0_v10_apply, val_main_call0_v9_apply, val_main_call0_v8_apply,
    idx_v8_v10, sumexp_at]
  rfl

/-- A row's loss. -/
theorem rowLoss_at (x g : FVec Ideal S131072x512 .f32) (n : Fin 131072) :
    val_main_v3 (F := Ideal) x g (ix1 n) = rowLoss bot (rowAt x n) (rowAt g n) := by
  rw [val_main_v3_apply, val_main_v2_apply, val_main_cst_apply]
  show -(Ideal.ofBits .f32 0x00000000#32 + _) = _
  rw [Ideal.ofBits_zero_f32, zero_add]
  unfold rowLoss
  refine congrArg Neg.neg (Finset.sum_congr rfl fun k _ => ?_)
  rw [idx_v2, val_main_v1_apply, logp_at]
  rfl

/-- The reference's result, at its one index, is the batch loss. -/
theorem result_at (x g : FVec Ideal S131072x512 .f32) (i : S_.Idx) :
    val_main_v5 (F := Ideal) x g i = meanLoss bot rows (rowAt x) (rowAt g) := by
  rw [val_main_v5_apply, val_main_v4_apply, val_main_cst_0_apply, val_main_cst_1_apply]
  show Ideal.div (Ideal.ofBits .f32 0x00000000#32 + _) rows = _
  rw [Ideal.ofBits_zero_f32, zero_add, sum_idx1]
  unfold meanLoss
  refine congrArg (Ideal.div · rows) (Finset.sum_congr rfl fun n _ => ?_)
  exact rowLoss_at x g n

end Cert.ReferenceIdeal.RefValue

end
-- ==== Proof.KernelPieces.lean ====
/-
  What the kernel body leaves behind at a grid point, as values.

  At every point the body adds to its one-element accumulator the block's partial loss: the accumulator ends at
  `k0_pay2 x g acc` of the two input blocks `x`, `g` and of what the accumulator held (`acc`). At the first
  point it first stores a zero there, so `acc` is that zero (`k0_pay1`); at the last point it also stores into the
  output block the accumulator divided by the number of rows, `k0_pay3` of the accumulator's new value. Each
  statement reads the stores the run found back as one value: every store here covers its whole one-element
  buffer from offset zero, and every load reads a whole buffer from offset zero.
-/
import proofs.«133387_j25409026523315_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Offset zero on both axes. -/
theorem hz : (![0, 0] : Fin 2 → Nat) = fun _ => 0 := funext fun a => by fin_cases a <;> rfl

/-- A middle point: the accumulator ends at its old value plus the block's partial loss. -/
theorem acc_middle (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2048x512 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S2048x512) hz,
    View.ld_unit_zero (S := S1x1) hz]

/-- The first point: the accumulator is zeroed first, so it ends at that zero plus the block's partial loss. -/
theorem acc_first (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2048x512 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x512) hz]

/-- The last point, the accumulator: as at a middle point. -/
theorem acc_last (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x512 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S2048x512) hz,
    View.ld_unit_zero (S := S1x1) hz]

/-- The last point, the output block: the accumulator's new value divided by the number of rows. -/
theorem out_last (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x512 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S2048x512) hz,
    View.ld_unit_zero (S := S1x1) hz]

end Cert.KernelIdeal.Pieces

end
-- ==== Proof.KernelPayload.lean ====
/-
  The body's arithmetic, read at the extended reals.

  On a block of 2048 rows of scores `x` and targets `g` the body computes each row's maximum, the shifted
  scores, the sum of their exponentials and its logarithm, the log-softmax, its products with the targets, their
  sum along the row, the negation (as `0 - ·`), and the sum of the 2048 values so obtained: the block's partial
  loss. It adds that to the accumulator; at the last point it divides the accumulator by the number of rows.
  Here the printed payloads are restated over named stages (equal to them by unfolding), and each stage is read
  at an index: a reduction along the row is a running maximum or a sum over the row's 512 entries, a column
  kept as a [2048, 1] array and broadcast back reads its row's value, and the sum of a [2048] vector viewed as
  [1, 2048] and reduced to one element is the sum of its entries. So the partial loss is the sum over the block's
  rows of `rowLoss`, and `0 - s = -s`.
-/
import proofs.«133387_j25409026523315_1_alg».proof.Proof.Gen.KernelIdeal.Skeleton
import proofs.«133387_j25409026523315_1_alg».proof.Proof.SoftCrossEntropy
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.SoftCrossEntropy
open Idealize.ShloMosaic Idealize.ShloMosaic.ValueIdx

/-! ### Two layout readings the body needs: a vector kept as a column, and a column broadcast along the rows -/

/-- An `[a]` vector cast to an `[a, 1]` column reads, at `(r, u)`, the vector at `r`. -/
theorem column_apply {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu]; omega)

/-- An `[a, 1]` column broadcast to `[a, b]` reads, at `(r, k)`, the column at `r`. -/
theorem spread_apply {α : Type} {a b : ℕ} (v : (⟨2, ![a, 1]⟩ : Shape).Idx → α)
    (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-! ### The stages, for any float values -/

section Stages

variable {F : FTy → Type} [FloatOps F]

/-- Each row's maximum. -/
def rowMaxima (x : FVec F S2048x512 .f32) : FVec F S2048 .f32 :=
  multiReduction .maximumf [1] S2048 x 0xFF800000#32 reduces_S2048x512_S2048 (.inl rfl) rfl

/-- Each row's sum. -/
def rowSums (w : FVec F S2048x512 .f32) : FVec F S2048 .f32 :=
  multiReduction .add [1] S2048 w 0x00000000#32 reduces_S2048x512_S2048 (.inl rfl) rfl

/-- A per-row value kept as a column. -/
def column (v : FVec F S2048 .f32) : FVec F S2048x1 .f32 := shapeCast S2048x1 v shapeCasts_S2048_S2048x1

/-- A column repeated along each row. -/
def spread (v : FVec F S2048x1 .f32) : FVec F S2048x512 .f32 := broadcastTo S2048x512 v broadcasts_S2048x1_S2048x512

/-- The scores less their row's maximum. -/
def shifted (x : FVec F S2048x512 .f32) : FVec F S2048x512 .f32 := subf x (spread (column (rowMaxima x)))

/-- The log-softmax of every row. -/
def logProb (x : FVec F S2048x512 .f32) : FVec F S2048x512 .f32 :=
  subf (shifted x) (spread (log (column (rowSums (exp (shifted x))))))

/-- Each row's loss: zero less the sum of the targets times the log-softmax. -/
def rowLosses (x g : FVec F S2048x512 .f32) : FVec F S2048 .f32 :=
  subf (broadcast S2048 (Scalar.ofBits .f32 0x00000000#32)) (rowSums (mulf g (logProb x)))

/-- The sum of a `[2048]` vector, as the body takes it: viewed `[1, 2048]`, reduced to `[1]`, viewed `[1, 1]`, its one element extracted. -/
def total (u : FVec F S2048 .f32) : F .f32 :=
  extractAt ![0, 0]
    (shapeCast S1x1 (multiReduction .add [1] S1 (shapeCast S1x2048 u shapeCasts_S2048_S1x2048) 0x00000000#32
      reduces_S1x2048_S1 (.inl rfl) rfl) shapeCasts_S1_S1x1) inpos_S1x1_p0_0

/-- The accumulator's update is the accumulator plus the block's total of row losses. -/
theorem pay2_eq (x g : FVec F S2048x512 .f32) (acc : FVec F S1x1 .f32) :
    k0_pay2 x g acc = shapeCast S1x1 (addf acc (broadcast S1x1 (total (rowLosses x g)))) shapeCasts_S1x1_S1x1 := rfl

/-- The zero the first point stores. -/
theorem pay1_eq : k0_pay1 (F := F) = shapeCast S1x1 (broadcast S1x1 (Scalar.ofBits .f32 0x00000000#32)) shapeCasts_S1x1_S1x1 := rfl

/-- The output: the accumulator divided by the number of rows. -/
theorem pay3_eq (acc : FVec F S1x1 .f32) :
    k0_pay3 acc = divf acc (broadcast S1x1 (Scalar.ofBits .f32 0x48000000#32)) := rfl

end Stages

/-! ### The stages at an index, at the extended reals -/

/-- Row `r` of a block of 2048 rows of 512 entries. -/
abbrev rowAt (x : FVec Ideal S2048x512 .f32) (r : Fin 2048) : Fin 512 → EReal := fun k => x (ix2 r k)

/-- A row's maximum is the running maximum of its entries from `bot`. -/
theorem rowMaxima_apply (x : FVec Ideal S2048x512 .f32) (r : Fin 2048) :
    rowMaxima x (ix1 r) = rowMax bot (rowAt x r) := by
  unfold rowMaxima
  refine (Ideal.multiReduction_maximumf_single x _ reduces_S2048x512_S2048 _ _ (ix1 r)).trans ?_
  have e : (x ∘ reduces_S2048x512_S2048.lift (ix1 r)) = rowAt x r :=
    funext fun k => congrArg x (funext fun a => Fin.ext (by match a with | ⟨0, _⟩ => rfl | ⟨1, _⟩ => rfl))
  rw [e]
  rfl

/-- A row's sum is the sum of its entries. -/
theorem rowSums_apply (w : FVec Ideal S2048x512 .f32) (r : Fin 2048) :
    rowSums w (ix1 r) = ∑ l : Fin 512, w (ix2 r l) := by
  unfold rowSums
  refine (Ideal.multiReduction_add_single w _ reduces_S2048x512_S2048 _ _ (ix1 r)).trans ?_
  exact Finset.sum_congr rfl fun l _ =>
    congrArg w (funext fun a => Fin.ext (by match a with | ⟨0, _⟩ => rfl | ⟨1, _⟩ => rfl))

/-- A per-row value kept as a column and repeated along the row reads the row's value. -/
theorem spread_column_apply (v : FVec Ideal S2048 .f32) (r : Fin 2048) (k : Fin 512) :
    spread (column v) (ix2 r k) = v (ix1 r) := by
  unfold spread column
  exact (spread_apply _ broadcasts_S2048x1_S2048x512 r k).trans (column_apply v shapeCasts_S2048_S2048x1 r 0)

/-- The same with the logarithm taken on the column. -/
theorem spread_log_column_apply (s : FVec Ideal S2048 .f32) (r : Fin 2048) (k : Fin 512) :
    spread (log (column s)) (ix2 r k) = Ideal.log (s (ix1 r)) := by
  unfold spread column
  refine (spread_apply _ broadcasts_S2048x1_S2048x512 r k).trans ?_
  show Ideal.log (shapeCast S2048x1 s shapeCasts_S2048_S2048x1 (ix2 r 0)) = _
  rw [column_apply s shapeCasts_S2048_S2048x1 r 0]

/-- The shifted score. -/
theorem shifted_apply (x : FVec Ideal S2048x512 .f32) (r : Fin 2048) (k : Fin 512) :
    shifted x (ix2 r k) = x (ix2 r k) - rowMax bot (rowAt x r) := by
  unfold shifted
  rw [subf_apply, spread_column_apply, rowMaxima_apply]

/-- The log-softmax. -/
theorem logProb_apply (x : FVec Ideal S2048x512 .f32) (r : Fin 2048) (k : Fin 512) :
    logProb x (ix2 r k) = logSoftmax bot (rowAt x r) k := by
  unfold logProb
  rw [subf_apply, shifted_apply, spread_log_column_apply, rowSums_apply]
  unfold logSoftmax
  refine congrArg (fun s => (x (ix2 r k) - rowMax bot (rowAt x r)) - Ideal.log s) (Finset.sum_congr rfl fun l _ => ?_)
  show Ideal.exp (shifted x (ix2 r l)) = _
  rw [shifted_apply]

/-- A row's loss: `0 - s` is `-s`. -/
theorem rowLosses_apply (x g : FVec Ideal S2048x512 .f32) (r : Fin 2048) :
    rowLosses x g (ix1 r) = rowLoss bot (rowAt x r) (rowAt g r) := by
  unfold rowLosses
  rw [subf_apply, rowSums_apply]
  show Ideal.ofBits .f32 0x00000000#32 - _ = _
  rw [Ideal.ofBits_zero_f32, zero_sub]
  unfold rowLoss
  refine congrArg Neg.neg (Finset.sum_congr rfl fun k _ => ?_)
  rw [mulf_apply, logProb_apply]

/-- The body's total of a `[2048]` vector is the sum of its entries. -/
theorem total_apply (u : FVec Ideal S2048 .f32) : total u = ∑ r : Fin 2048, u (ix1 r) := by
  unfold total extractAt
  have e : (fun a => ⟨(![0, 0] : Fin 2 → ℕ) a, inpos_S1x1_p0_0 a⟩ : S1x1.Idx) = ix2 (0 : Fin 1) (0 : Fin 1) :=
    funext fun a => by match a with | ⟨0, _⟩ => rfl | ⟨1, _⟩ => rfl
  rw [e]
  refine (shapeCast_a_1a_apply _ shapeCasts_S1_S1x1 0 0).trans ?_
  refine (Ideal.multiReduction_add_single _ _ reduces_S1x2048_S1 _ _ (ix1 0)).trans ?_
  refine Finset.sum_congr rfl fun r _ => ?_
  have e2 : reduces_S1x2048_S1.lift (ix1 (0 : Fin 1)) r = ix2 (0 : Fin 1) r :=
    funext fun a => Fin.ext (by match a with | ⟨0, _⟩ => rfl | ⟨1, _⟩ => rfl)
  rw [e2]
  exact shapeCast_a_1a_apply u shapeCasts_S2048_S1x2048 0 r

/-- The block's partial loss: the sum over its rows of the rows' losses. -/
def blockLoss (x g : FVec Ideal S2048x512 .f32) : EReal := ∑ r : Fin 2048, rowLoss bot (rowAt x r) (rowAt g r)

/-- The accumulator's update, at its one index: the old value plus the block's partial loss. -/
theorem pay2_apply (x g : FVec Ideal S2048x512 .f32) (acc : FVec Ideal S1x1 .f32) (y : S1x1.Idx) :
    k0_pay2 (F := Ideal) x g acc y = acc y + blockLoss x g := by
  rw [pay2_eq, shapeCast_self]
  show acc y + total (rowLosses x g) = _
  rw [total_apply]
  exact congrArg (acc y + ·) (Finset.sum_congr rfl fun r _ => rowLosses_apply x g r)

/-- The first point's zero. -/
theorem pay1_apply (y : S1x1.Idx) : k0_pay1 (F := Ideal) y = 0 := by
  rw [pay1_eq, shapeCast_self]
  exact Ideal.ofBits_zero_f32

/-- The output, at its one index: the accumulator divided by the number of rows. -/
theorem pay3_apply (acc : FVec Ideal S1x1 .f32) (y : S1x1.Idx) :
    k0_pay3 (F := Ideal) acc y = Ideal.div (acc y) rows := rfl

end Cert.KernelIdeal.Payload

end
-- ==== Proof.KernelValue.lean ====
/-
  What the kernel's result holds: the batch loss of its two argument arrays.

  The grid has 64 points; point `t` is handed rows `2048 t … 2048 t + 2047` of the scores and of the targets.
  After point `n` the one-element accumulator holds the sum of the partial losses of blocks `0 … n` (by
  induction on the point: the first point starts from the zero it stores, every later point adds to what the
  point before left). The last point also writes the accumulator divided by the number of rows into the output
  block, the only point that writes the output back; that block is the whole `[1, 1]` result array, and the
  reshape after the region reads its one element. A block's row `r` at point `t` is row `2048 t + r` of the
  array, so the sum over the points of the blocks' partial losses is the sum over all 131072 rows of the
  rows' losses (`sum_blocks`): the result is `meanLoss` of the arrays.
-/
import proofs.«133387_j25409026523315_1_alg».proof.Proof.Gen.KernelIdeal.Frame
import proofs.«133387_j25409026523315_1_alg».proof.Proof.KernelPieces
import proofs.«133387_j25409026523315_1_alg».proof.Proof.KernelPayload
import proofs.«133387_j25409026523315_1_alg».proof.Proof.SoftCrossEntropy
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KernelValue

open Cert.KernelIdeal Cert.KernelIdeal.Gen Cert.SoftCrossEntropy
open Idealize.ShloMosaic.ValueIdx

variable (m : (ℓ : Loc nD τ sig) → Buf (Elt Ideal) ℓ) (ρ : Dev nD → PrngReg)

/-- The partial loss of the block point `t` is handed. -/
def blk (c : Dev nD) (t : Fin cfg0.N) : EReal := Payload.blockLoss (iblk m c 0 t) (iblk m c 1 t)

/-- The same for any natural number, zero past the grid. -/
def blkN (c : Dev nD) (i : ℕ) : EReal := if h : i < cfg0.N then blk m c ⟨i, h⟩ else 0

/-- The accumulator after point `n`, as the points leave it: the first from zero, each later one from the one before. -/
def running (c : Dev nD) : (n : ℕ) → n < cfg0.N → EReal
  | 0, h => 0 + blk m c ⟨0, h⟩
  | n + 1, h => running c n (Nat.lt_of_succ_lt h) + blk m c ⟨n + 1, h⟩

/-- What the accumulator holds after point `n` is that running sum. -/
theorem acc_eq (c : Dev nD) : ∀ (n : ℕ) (h : n < cfg0.N) (y : S1x1.Idx), (outsAt0 m c n h).2 y = running m c n h
  | 0, h, y => by
    rw [outsAt0_A m c ⟨0, h⟩ rfl (show ¬(0 % 64 = 63) by decide)]
    dsimp only
    rw [Pieces.acc_first]
    refine (Payload.pay2_apply (iblk m c 0 ⟨0, h⟩) (iblk m c 1 ⟨0, h⟩) (k0_pay1 (F := Ideal)) y).trans ?_
    rw [Payload.pay1_apply]
    rfl
  | n + 1, h, y => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [Pieces.acc_last]
      refine (Payload.pay2_apply (iblk m c 0 ⟨n + 1, h⟩) (iblk m c 1 ⟨n + 1, h⟩) (outsAt0 m c n (Nat.lt_of_succ_lt h)).2 y).trans ?_
      rw [acc_eq c n (Nat.lt_of_succ_lt h) y]
      rfl
    · rw [outsAt0_B m c ⟨n + 1, h⟩ h0 h1]
      dsimp only
      rw [Pieces.acc_middle]
      refine (Payload.pay2_apply (iblk m c 0 ⟨n + 1, h⟩) (iblk m c 1 ⟨n + 1, h⟩) (outsAt0 m c n (Nat.lt_of_succ_lt h)).2 y).trans ?_
      rw [acc_eq c n (Nat.lt_of_succ_lt h) y]
      rfl

/-- The running sum after point `n` is the sum of the partial losses of blocks `0 … n`. -/
theorem running_eq_sum (c : Dev nD) (n : ℕ) (h : n < cfg0.N) :
    running m c n h = ∑ i ∈ Finset.range (n + 1), blkN m c i := by
  induction n with
  | zero =>
    show 0 + blk m c ⟨0, h⟩ = _
    rw [Finset.sum_range_one, zero_add]
    unfold blkN
    rw [dif_pos h]
  | succ n ih =>
    show running m c n (Nat.lt_of_succ_lt h) + blk m c ⟨n + 1, h⟩ = _
    rw [ih (Nat.lt_of_succ_lt h), Finset.sum_range_succ _ (n + 1)]
    congr 1
    unfold blkN
    rw [dif_pos h]

/-- The last point is point 63. -/
theorem last_lt : 63 < cfg0.N := by rw [show cfg0.N = 64 from N_0]; decide

/-- The accumulator after the last point: the sum of all 64 partial losses. -/
theorem running_last (c : Dev nD) : running m c 63 last_lt = ∑ t : Fin cfg0.N, blk m c t := by
  rw [running_eq_sum]
  have hN : cfg0.N = 64 := N_0
  rw [show (63 + 1 : ℕ) = cfg0.N from hN.symm, Finset.sum_range]
  refine Finset.sum_congr rfl fun t _ => ?_
  unfold blkN
  rw [dif_pos t.isLt]

/-- The value the kernel leaves in its result: the accumulated loss divided by the number of rows. -/
def kernelLoss (c : Dev nD) : EReal := Ideal.div (∑ t : Fin cfg0.N, blk m c t) rows

/-- What the last point leaves in the output block. -/
theorem out_eq (c : Dev nD) (y : S1x1.Idx) : (outsAt0 m c 63 last_lt).1 y = kernelLoss m c := by
  have h0 : ¬(⟨63, last_lt⟩ : Fin cfg0.N).val % 64 = 0 := by decide
  have h1 : (⟨63, last_lt⟩ : Fin cfg0.N).val % 64 = 63 := by decide
  rw [outsAt0_C m c ⟨63, last_lt⟩ h0 h1]
  dsimp only
  rw [Pieces.out_last]
  refine (Payload.pay3_apply _ y).trans ?_
  refine congrArg (Ideal.div · rows) ?_
  refine (Payload.pay2_apply (iblk m c 0 ⟨63, last_lt⟩) (iblk m c 1 ⟨63, last_lt⟩) (outsAt0 m c 62 _).2 y).trans ?_
  rw [acc_eq m c 62 _ y, ← running_last m c]
  rfl

/-! ### The result array after the region -/

/-- The `[1, 1]` result array's contents at the end: its one entry the kernel's loss. -/
abbrev resultArr (c : Dev nD) : Buf (Elt Ideal) ((c : Thread nD τ).loc main_v0) := fun _ => kernelLoss m c

/-- The one write-back, at the last point, writes that: the block at index (0, 0) of a `[1, 1]` array is the array. -/
theorem flushed_eq (c : Dev nD) (t : Fin cfg0.N) (hf : (cfg0.win 2).flush t = true) :
    (dats m 0 c).flushed 2 t = ((cfg0.win 2).blk t).view.read (Elt Ideal) (resultArr m c) := by
  have hN : cfg0.N = 64 := N_0
  have h63 : t.val = 63 := by have := (flush0_2 t).mp hf; have := t.isLt; omega
  obtain rfl : t = ⟨63, last_lt⟩ := Fin.ext h63
  show (cfg0.win 2).cut (grid0.coords ⟨63, last_lt⟩) ((dats m 0 c).after 2 ⟨63, last_lt⟩) = _
  rw [after0_2]
  have e : (outsAt0 m c 63 last_lt).1 = fun _ => kernelLoss m c := funext fun y => out_eq m c y
  rw [e]
  have hz' : (fun a => win0_2.index ⟨63, last_lt⟩ a * main_v0.ty.shape.size a) = fun _ => 0 :=
    funext fun a => by fin_cases a <;> decide
  exact (Memref.read_access_unit_zero (Elt Ideal) main_v0 hz' (fun a => by rw [congrFun hz' a]; simp) (resultArr m c)).symm

/-- So the result array ends holding the kernel's loss: the last point's block covers it. -/
theorem final_out (c : Dev nD) : (dats m 0 c).arrAt 2 cfg0.N = resultArr m c :=
  (dats m 0 c).arrAt_eq_of_cover 2 (resultArr m c) (flushed_eq m c) fun i =>
    ⟨⟨63, last_lt⟩, (flush0_2 ⟨63, last_lt⟩).mpr rfl, by
      show i ∈ ((View.whole main_v0).slice (win0_2.rect ⟨63, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨63, last_lt⟩ 0 * win0_2.size 0 ≤ (i 0 : Nat)
          ∧ (i 0 : Nat) < win0_2.index ⟨63, last_lt⟩ 0 * win0_2.size 0 + win0_2.xsize (grid0.coords ⟨63, last_lt⟩) 0
        rw [show win0_2.index ⟨63, last_lt⟩ 0 * win0_2.size 0 = 0 from by decide +kernel,
          show win0_2.xsize (grid0.coords ⟨63, last_lt⟩) 0 = 1 from by decide +kernel]
        omega
      | ⟨1, _⟩ =>
        show win0_2.index ⟨63, last_lt⟩ 1 * win0_2.size 1 ≤ (i 1 : Nat)
          ∧ (i 1 : Nat) < win0_2.index ⟨63, last_lt⟩ 1 * win0_2.size 1 + win0_2.xsize (grid0.coords ⟨63, last_lt⟩) 1
        rw [show win0_2.index ⟨63, last_lt⟩ 1 * win0_2.size 1 = 0 from by decide +kernel,
          show win0_2.xsize (grid0.coords ⟨63, last_lt⟩) 1 = 1 from by decide +kernel]
        omega⟩

/-- The reshape after the region reads the array's one entry. -/
theorem tail_eq (c : Dev nD) :
    Pipeline.afterTail₀ cfgs (dats m) 0 (V0 m) [hostOps1] c main_v1 = fun _ => kernelLoss m c := by
  unfold Pipeline.afterTail₀
  show StableHlo.after hostOps1 _ (Proc.devRef .tc main_v1) = _
  after_results
  funext i
  have e := (Pipeline.withArrays_arr spec0 launch0.win.arr_inj c (V0 m c) (fun w => (dats m 0 c).arrAt w cfg0.N) 2).trans
    (final_out m c)
  show shapeCast S_ (Pipeline.withArrays spec0 c (V0 m c) (fun w => (dats m 0 c).arrAt w cfg0.N)
    (Proc.devRef .tc (Pipeline.arrRef spec0 2))) shapeCasts_S1x1_S_ i = _
  rw [e]
  rfl

/-! ### The blocks' rows are the arrays' rows -/

/-- Both inputs' blocks at point `t` sit at block index `(t, 0)`: decided over the grid. -/
theorem idx_facts : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- Row `r` of the block at point `t` is row `2048 t + r` of the array. -/
def rowIx (t : Fin cfg0.N) (r : Fin 2048) : Fin 131072 :=
  ⟨2048 * t.val + r.val, by have := t.isLt; have hN : cfg0.N = 64 := N_0; have := r.isLt; omega⟩

/-- The scores' block at point `t`, read at `(r, k)`, is the scores array at `(2048 t + r, k)`. -/
theorem iblk0_apply (c : Dev nD) (t : Fin cfg0.N) (r : Fin 2048) (k : Fin 512) :
    iblk m c 0 t (ix2 r k) = m ((c : Thread nD τ).loc main_arg0) (ix2 (rowIx t r) k) := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * t.val + r.val; rw [(idx_facts t).1.1]; omega
  | ⟨1, _⟩ => show win0_0.index t 1 * 512 + 1 * k.val = k.val; rw [(idx_facts t).1.2]; omega

/-- The targets' block likewise. -/
theorem iblk1_apply (c : Dev nD) (t : Fin cfg0.N) (r : Fin 2048) (k : Fin 512) :
    iblk m c 1 t (ix2 r k) = m ((c : Thread nD τ).loc main_arg1) (ix2 (rowIx t r) k) := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = 2048 * t.val + r.val; rw [(idx_facts t).2.1]; omega
  | ⟨1, _⟩ => show win0_1.index t 1 * 512 + 1 * k.val = k.val; rw [(idx_facts t).2.2]; omega

/-- Row `n` of an array of 131072 rows of 512 entries. -/
abbrev arrRow (x : S131072x512.Idx → EReal) (n : Fin 131072) : Fin 512 → EReal := fun k => x (ix2 n k)

/-- A sum over the 64 points of sums over a block's 2048 rows is the sum over all 131072 rows. -/
theorem sum_rows {M : Type*} [AddCommMonoid M] (f : Fin 131072 → M) :
    ∑ t : Fin cfg0.N, ∑ r : Fin 2048, f (rowIx t r) = ∑ n, f n := by
  have hN : cfg0.N = 64 := N_0
  rw [← Equiv.sum_comp (finCongr hN.symm) (fun t : Fin cfg0.N => ∑ r : Fin 2048, f (rowIx t r))]
  refine Eq.trans ?_ (sum_blocks 64 2048 f)
  refine Finset.sum_congr rfl fun s _ => Finset.sum_congr rfl fun r _ => congrArg f (Fin.ext ?_)
  show 2048 * s.val + r.val = r.val + 2048 * s.val
  omega

/-- The kernel's loss is the batch loss of its two argument arrays. -/
theorem kernelLoss_eq (c : Dev nD) :
    kernelLoss m c = meanLoss bot rows (arrRow (m ((c : Thread nD τ).loc main_arg0))) (arrRow (m ((c : Thread nD τ).loc main_arg1))) := by
  unfold kernelLoss meanLoss
  refine congrArg (Ideal.div · rows) ?_
  rw [← sum_rows fun n => rowLoss bot (arrRow (m ((c : Thread nD τ).loc main_arg0)) n) (arrRow (m ((c : Thread nD τ).loc main_arg1)) n)]
  refine Finset.sum_congr rfl fun t _ => ?_
  unfold blk Payload.blockLoss
  refine Finset.sum_congr rfl fun r _ => ?_
  have e0 : Payload.rowAt (iblk m c 0 t) r = arrRow (m ((c : Thread nD τ).loc main_arg0)) (rowIx t r) :=
    funext fun k => iblk0_apply m c t r k
  have e1 : Payload.rowAt (iblk m c 1 t) r = arrRow (m ((c : Thread nD τ).loc main_arg1)) (rowIx t r) :=
    funext fun k => iblk1_apply m c t r k
  rw [e0, e1]

/-! ### The run -/

/-- Every weakly fair execution of the kernel's program terminates with its result at the kernel's loss and its two
    arguments unchanged. -/
theorem run : θ_run defs (onTc (τ := τ) (main (F := Ideal))) ⟨m, fun _ => 0, ρ⟩ fun r => ∀ c : Dev nD,
      r.2.mem ((c.tc : Thread nD τ).loc main_v1) = (fun _ => kernelLoss m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.lean ====
/-
  The kernel and the reference compute the same loss.

  The claim is about a soft-target cross entropy over 131072 rows of 512 classes: for each row, minus the sum over
  the classes of the target times the log-softmax of the scores; then the mean over the rows. The kernel visits the
  rows in 64 blocks of 2048, adds each block's partial loss into a one-element accumulator, and divides by the
  number of rows at the last block; the reference takes the log-softmax of the whole array, the rows' sums, their
  negations, the sum over all rows and the quotient. Over the extended reals both are `meanLoss` of the two arrays
  (Proof/SoftCrossEntropy.lean): the reference by reading its operations at an index (Proof/RefValue.lean), the
  kernel by the running sum over its grid points and the regrouping of a sum over rows into sums over blocks
  (Proof/KernelPieces.lean, Proof/KernelPayload.lean, Proof/KernelValue.lean). Only commutativity and
  associativity of the sum, `0 - s = -s`, and the idempotence of a maximum against its own starting value are used,
  so the precondition (finite inputs) is never opened. The three frames are the programs' runs with the result
  dropped; the idealization rewrote nothing, so it is preserved trivially.
-/
import proofs.«133387_j25409026523315_1_alg».proof.Defs
import proofs.«133387_j25409026523315_1_alg».proof.Proof.Gen.Kernel
import proofs.«133387_j25409026523315_1_alg».proof.Proof.Gen.Kernel.Skeleton
import proofs.«133387_j25409026523315_1_alg».proof.Proof.Gen.Kernel.Launch
import proofs.«133387_j25409026523315_1_alg».proof.Proof.Gen.Kernel.Points
import proofs.«133387_j25409026523315_1_alg».proof.Proof.Gen.Kernel.Frame
import proofs.«133387_j25409026523315_1_alg».proof.Proof.Gen.KernelIdeal
import proofs.«133387_j25409026523315_1_alg».proof.Proof.Gen.KernelIdeal.Skeleton
import proofs.«133387_j25409026523315_1_alg».proof.Proof.Gen.KernelIdeal.Launch
import proofs.«133387_j25409026523315_1_alg».proof.Proof.Gen.KernelIdeal.Points
import proofs.«133387_j25409026523315_1_alg».proof.Proof.Gen.KernelIdeal.Frame
import proofs.«133387_j25409026523315_1_alg».proof.Proof.Gen.ReferenceIdeal
import proofs.«133387_j25409026523315_1_alg».proof.Proof.Gen.Pre_finite_inputs
import proofs.«133387_j25409026523315_1_alg».proof.Proof.RefValue
import proofs.«133387_j25409026523315_1_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the two arguments, both programs end with the batch loss of those arguments. -/
theorem algebraic : Cert.algebraic_KernelIdeal_ReferenceIdeal := by
  intro m ρ m' ρ' _ hagree
  refine ⟨fun c _ => Cert.KernelIdeal.KernelValue.kernelLoss m c, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v5_eq]
  funext i
  rw [Cert.ReferenceIdeal.RefValue.result_at, (hagree c).1, (hagree c).2]
  exact (Cert.KernelIdeal.KernelValue.kernelLoss_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
